-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v39) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x4096 : Shape := ⟨2, ![8192, 4096]⟩
abbrev S4096x5 : Shape := ⟨2, ![4096, 5]⟩
abbrev S4096 : Shape := ⟨1, ![4096]⟩
abbrev S_ : Shape := ⟨0, ![]⟩

class Facts : Prop where
  bcast_S_S8192x4096 : S_.BroadcastsInDim S8192x4096 (![] : Fin 0 → Fin S8192x4096.rank)
  reducesTo_S8192x4096_S_d0_1 : S8192x4096.ReducesTo [0, 1] S_
  h_S_ : 0 < S_.numel
  bcast_S_S4096x5 : S_.BroadcastsInDim S4096x5 (![] : Fin 0 → Fin S4096x5.rank)
  reducesTo_S4096x5_S_d0_1 : S4096x5.ReducesTo [0, 1] S_
  bcast_S_S4096 : S_.BroadcastsInDim S4096 (![] : Fin 0 → Fin S4096.rank)
  reducesTo_S4096_S_d0 : S4096.ReducesTo [0] S_

variable [Facts]

def fn {F : FTy → Type} [FloatOps F] (main_arg0 : FVec F S8192x4096 .f32) (main_arg1 : FVec F S4096x5 .f32) (main_arg2 : FVec F S4096 .f32) : IVec S_ 1 :=
  let main_v0 : FVec F S8192x4096 .f32 := Host.absf main_arg0
  let main_cst : FVec F S_ .f32 := constant S_ .f32 0x7F800000#32
  let main_v1 : FVec F S8192x4096 .f32 := broadcastInDim S8192x4096 ![] bcast_S_S8192x4096 main_cst
  let main_v2 : IVec S8192x4096 1 := cmpf .olt main_v0 main_v1
  let main_c : IVec S_ 1 := constantI S_ 1 1#1
  let main_v3 : IVec S_ 1 := (fun x v => Host.reduce IntOp.andi x v reducesTo_S8192x4096_S_d0_1 h_S_) main_v2 main_c
  let main_v4 : FVec F S4096x5 .f32 := Host.absf main_arg1
  let main_cst_0 : FVec F S_ .f32 := constant S_ .f32 0x7F800000#32
  let main_v5 : FVec F S4096x5 .f32 := broadcastInDim S4096x5 ![] bcast_S_S4096x5 main_cst_0
  let main_v6 : IVec S4096x5 1 := cmpf .olt main_v4 main_v5
  let main_c_1 : IVec S_ 1 := constantI S_ 1 1#1
  let main_v7 : IVec S_ 1 := (fun x v => Host.reduce IntOp.andi x v reducesTo_S4096x5_S_d0_1 h_S_) main_v6 main_c_1
  let main_v8 : IVec S_ 1 := andi main_v3 main_v7
  let main_v9 : FVec F S4096 .f32 := Host.absf main_arg2
  let main_cst_2 : FVec F S_ .f32 := constant S_ .f32 0x7F800000#32
  let main_v10 : FVec F S4096 .f32 := broadcastInDim S4096 ![] bcast_S_S4096 main_cst_2
  let main_v11 : IVec S4096 1 := cmpf .olt main_v9 main_v10
  let main_c_3 : IVec S_ 1 := constantI S_ 1 1#1
  let main_v12 : IVec S_ 1 := (fun x v => Host.reduce IntOp.andi x v reducesTo_S4096_S_d0 h_S_) main_v11 main_c_3
  let main_v13 : IVec S_ 1 := andi main_v8 main_v12
  main_v13
-- ==== Kernel.lean ====
abbrev S8192x4096 : Shape := ⟨2, ![8192, 4096]⟩
abbrev S4096x5 : Shape := ⟨2, ![4096, 5]⟩
abbrev S4096 : Shape := ⟨1, ![4096]⟩
abbrev S5x4096 : Shape := ⟨2, ![5, 4096]⟩
abbrev S1x4096 : Shape := ⟨2, ![1, 4096]⟩
abbrev S512x4096 : Shape := ⟨2, ![512, 4096]⟩
abbrev S128x4096 : Shape := ⟨2, ![128, 4096]⟩

abbrev nBuf : Space → Nat
  | .hbm => 6
  | .vmem => 6
  | .smem => 0
  | _ => 0

abbrev bufTy : (tb : Table) → Fin (tcTables nBuf tb) → BufTy
  | .hbm, ⟨0, _⟩ => ⟨S8192x4096, .f32⟩
  | .hbm, ⟨1, _⟩ => ⟨S4096x5, .f32⟩
  | .hbm, ⟨2, _⟩ => ⟨S4096, .f32⟩
  | .hbm, ⟨3, _⟩ => ⟨S5x4096, .f32⟩
  | .hbm, ⟨4, _⟩ => ⟨S1x4096, .f32⟩
  | .hbm, ⟨5, _⟩ => ⟨S8192x4096, .f32⟩
  | .local _ .vmem, ⟨0, _⟩ => ⟨S512x4096, .f32⟩
  | .local _ .vmem, ⟨1, _⟩ => ⟨S512x4096, .f32⟩
  | .local _ .vmem, ⟨2, _⟩ => ⟨S5x4096, .f32⟩
  | .local _ .vmem, ⟨3, _⟩ => ⟨S1x4096, .f32⟩
  | .local _ .vmem, ⟨4, _⟩ => ⟨S512x4096, .f32⟩
  | .local _ .vmem, ⟨5, _⟩ => ⟨S512x4096, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![16], ![false]⟩

@[reducible] def k0_t1_loop : Scf.Loop 32 :=
  let c0_i32 : BitVec 32 := 0#32
  let c4_i32 : BitVec 32 := 4#32
  let v5 : BitVec 32 := Scalar.addi c0_i32 c4_i32
  let c1_i32 : BitVec 32 := 1#32
  ⟨c0_i32, v5, c1_i32⟩
def k0_mult1 (k0_t1 : Fin k0_t1_loop.trips) : BitVec 32 :=
  let c0_i32_3 : BitVec 32 := 0#32
  let c0_i32 : BitVec 32 := 0#32
  let c1_i32 : BitVec 32 := 1#32
  let arg5 : BitVec 32 := Scf.iv c0_i32 c1_i32 k0_t1
  let c1_i32_2 : BitVec 32 := 1#32
  let v6 : BitVec 32 := Scalar.muli arg5 c1_i32_2
  let v7 : BitVec 32 := Scalar.addi c0_i32_3 v6
  let c128_i32 : BitVec 32 := 128#32
  let v8 : BitVec 32 := Scalar.muli v7 c128_i32
  v8
def k0_off1 (k0_t1 : Fin k0_t1_loop.trips) : Fin 2 → Nat :=
  let c0_i32_3 : BitVec 32 := 0#32
  let c0_i32 : BitVec 32 := 0#32
  let c1_i32 : BitVec 32 := 1#32
  let arg5 : BitVec 32 := Scf.iv c0_i32 c1_i32 k0_t1
  let c1_i32_2 : BitVec 32 := 1#32
  let v6 : BitVec 32 := Scalar.muli arg5 c1_i32_2
  let v7 : BitVec 32 := Scalar.addi c0_i32_3 v6
  let c128_i32 : BitVec 32 := 128#32
  let v8 : BitVec 32 := Scalar.muli v7 c128_i32
  let v9 : BitVec 32 := v8
  let v10 : Index := Scalar.indexCast v9
  let c0_4 : Index := 0#32
  ![v10.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S5x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  transposes_S4096x5_S5x4096_1_0 : S4096x5.Transposes [1, 0] S5x4096
  shapeCasts_S4096_S1x4096 : S4096.ShapeCasts S1x4096
  iota_S128x4096_d1_w32 : S128x4096.Iotas .tc 32 [1]
  inb_S1x4096_S1x4096_0_0 : ∀ a, (![0, 0] : Fin 2 → Nat) a + S1x4096.size a ≤ S1x4096.size a
  h_S1x4096 : 0 < S1x4096.numel
  shapeCasts_S1x4096_S1x4096 : S1x4096.ShapeCasts S1x4096
  broadcasts_S1x4096_S128x4096 : S1x4096.Broadcasts S128x4096
  h_S128x4096 : 0 < S128x4096.numel
  inb_S5x4096_S1x4096_0_0 : ∀ a, (![0, 0] : Fin 2 → Nat) a + S1x4096.size a ≤ S5x4096.size a
  shapeCasts_S1x4096_S4096 : S1x4096.ShapeCasts S4096
  rotates_S128x4096_d1 : S128x4096.Rotates 1 none
  inb_S5x4096_S1x4096_1_0 : ∀ a, (![1, 0] : Fin 2 → Nat) a + S1x4096.size a ≤ S5x4096.size a
  inb_S5x4096_S1x4096_2_0 : ∀ a, (![2, 0] : Fin 2 → Nat) a + S1x4096.size a ≤ S5x4096.size a
  inb_S5x4096_S1x4096_3_0 : ∀ a, (![3, 0] : Fin 2 → Nat) a + S1x4096.size a ≤ S5x4096.size a
  inb_S5x4096_S1x4096_4_0 : ∀ a, (![4, 0] : Fin 2 → Nat) a + S1x4096.size a ≤ S5x4096.size a
  hrank0 : 0 < grid0.rank
  k0_t1_ok : k0_t1_loop.OK
  k0_mult1_dvd : ∀ k0_t1 : Fin k0_t1_loop.trips, 128 ∣ (k0_mult1 k0_t1).toNat
  k0_off1_inb : ∀ k0_t1 : Fin k0_t1_loop.trips, ∀ a, (k0_off1 k0_t1) a + S128x4096.size a ≤ S512x4096.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x4096.size a ≤ S8192x4096.size a
  hwx0_0 : ∀ i : grid0.Coords, EltTy.bits .f32 = 32 ∨ (Rect.block (s := S8192x4096) S512x4096.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S5x4096.size a ≤ S5x4096.size a
  hwx0_1 : ∀ i : grid0.Coords, EltTy.bits .f32 = 32 ∨ (Rect.block (s := S5x4096) S5x4096.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x4096.size a ≤ S1x4096.size a
  hwx0_2 : ∀ i : grid0.Coords, EltTy.bits .f32 = 32 ∨ (Rect.block (s := S1x4096) S1x4096.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x4096.size a ≤ S8192x4096.size a
  hwx0_3 : ∀ i : grid0.Coords, EltTy.bits .f32 = 32 ∨ (Rect.block (s := S8192x4096) S512x4096.size (cc0_transform_3 i) (hinb0_3 i)).WholeWords (EltTy.packing .f32)

variable [Facts₀]

abbrev win0_0 : Pipeline.Window sig grid0 :=
  Pipeline.Window.ofSpec (Memref.whole main_arg0) S512x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S5x4096.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1x4096.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2) S512x4096.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S8192x4096 : Shape := ⟨2, ![8192, 4096]⟩
abbrev S4096x5 : Shape := ⟨2, ![4096, 5]⟩
abbrev S4096 : Shape := ⟨1, ![4096]⟩
abbrev S_ : Shape := ⟨0, ![]⟩
abbrev S8192x4100 : Shape := ⟨2, ![8192, 4100]⟩
abbrev S4096x1 : Shape := ⟨2, ![4096, 1]⟩
abbrev S1x4096 : Shape := ⟨2, ![1, 4096]⟩

abbrev nBuf : Space → Nat
  | .hbm => 46
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S4096x5, .f32⟩
  | .hbm, ⟨2, _⟩ => ⟨S4096, .f32⟩
  | .hbm, ⟨3, _⟩ => ⟨S_, .i32⟩
  | .hbm, ⟨4, _⟩ => ⟨S_, .f32⟩
  | .hbm, ⟨5, _⟩ => ⟨S8192x4100, .f32⟩
  | .hbm, ⟨6, _⟩ => ⟨S_, .f32⟩
  | .hbm, ⟨7, _⟩ => ⟨S8192x4096, .f32⟩
  | .hbm, ⟨8, _⟩ => ⟨S8192x4096, .f32⟩
  | .hbm, ⟨9, _⟩ => ⟨S4096x1, .f32⟩
  | .hbm, ⟨10, _⟩ => ⟨S4096, .f32⟩
  | .hbm, ⟨11, _⟩ => ⟨S1x4096, .f32⟩
  | .hbm, ⟨12, _⟩ => ⟨S8192x4096, .f32⟩
  | .hbm, ⟨13, _⟩ => ⟨S8192x4096, .f32⟩
  | .hbm, ⟨14, _⟩ => ⟨S8192x4096, .f32⟩
  | .hbm, ⟨15, _⟩ => ⟨S8192x4096, .f32⟩
  | .hbm, ⟨16, _⟩ => ⟨S4096x1, .f32⟩
  | .hbm, ⟨17, _⟩ => ⟨S4096, .f32⟩
  | .hbm, ⟨18, _⟩ => ⟨S1x4096, .f32⟩
  | .hbm, ⟨19, _⟩ => ⟨S8192x4096, .f32⟩
  | .hbm, ⟨20, _⟩ => ⟨S8192x4096, .f32⟩
  | .hbm, ⟨21, _⟩ => ⟨S8192x4096, .f32⟩
  | .hbm, ⟨22, _⟩ => ⟨S8192x4096, .f32⟩
  | .hbm, ⟨23, _⟩ => ⟨S4096x1, .f32⟩
  | .hbm, ⟨24, _⟩ => ⟨S4096, .f32⟩
  | .hbm, ⟨25, _⟩ => ⟨S1x4096, .f32⟩
  | .hbm, ⟨26, _⟩ => ⟨S8192x4096, .f32⟩
  | .hbm, ⟨27, _⟩ => ⟨S8192x4096, .f32⟩
  | .hbm, ⟨28, _⟩ => ⟨S8192x4096, .f32⟩
  | .hbm, ⟨29, _⟩ => ⟨S8192x4096, .f32⟩
  | .hbm, ⟨30, _⟩ => ⟨S4096x1, .f32⟩
  | .hbm, ⟨31, _⟩ => ⟨S4096, .f32⟩
  | .hbm, ⟨32, _⟩ => ⟨S1x4096, .f32⟩
  | .hbm, ⟨33, _⟩ => ⟨S8192x4096, .f32⟩
  | .hbm, ⟨34, _⟩ => ⟨S8192x4096, .f32⟩
  | .hbm, ⟨35, _⟩ => ⟨S8192x4096, .f32⟩
  | .hbm, ⟨36, _⟩ => ⟨S8192x4096, .f32⟩
  | .hbm, ⟨37, _⟩ => ⟨S4096x1, .f32⟩
  | .hbm, ⟨38, _⟩ => ⟨S4096, .f32⟩
  | .hbm, ⟨39, _⟩ => ⟨S1x4096, .f32⟩
  | .hbm, ⟨40, _⟩ => ⟨S8192x4096, .f32⟩
  | .hbm, ⟨41, _⟩ => ⟨S8192x4096, .f32⟩
  | .hbm, ⟨42, _⟩ => ⟨S8192x4096, .f32⟩
  | .hbm, ⟨43, _⟩ => ⟨S1x4096, .f32⟩
  | .hbm, ⟨44, _⟩ => ⟨S8192x4096, .f32⟩
  | .hbm, ⟨45, _⟩ => ⟨S8192x4096, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_call0_v0 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_v36 : Ref sig .tc := ⟨.hbm, 42, rfl⟩
abbrev main_v37 : Ref sig .tc := ⟨.hbm, 43, rfl⟩
abbrev main_v38 : Ref sig .tc := ⟨.hbm, 44, rfl⟩
abbrev main_v39 : Ref sig .tc := ⟨.hbm, 45, rfl⟩

abbrev nD : Nat := 1
abbrev τ : Topo := Topo.v7x

variable {F : FTy → Type} [FloatOps F]

class Facts₀ : Prop where
  pads_S8192x4096_S8192x4100_000_220 : S8192x4096.Pads (![0, 2] : Fin 2 → Nat) ![0, 2] ![0, 0] S8192x4100
  h_S_ : 0 < S_.numel
  bcast_S_S8192x4096 : S_.BroadcastsInDim S8192x4096 (![] : Fin 0 → Fin S8192x4096.rank)
  slices_S8192x4100_S8192x4096_0_0 : S8192x4100.Slices ![0, 0] S8192x4096
  slices_S4096x5_S4096x1_0_0 : S4096x5.Slices ![0, 0] S4096x1
  shapeCasts_S4096x1_S4096 : S4096x1.ShapeCasts S4096
  bcast_S4096_S1x4096_1 : S4096.BroadcastsInDim S1x4096 (![1] : Fin 1 → Fin S1x4096.rank)
  bcast_S1x4096_S8192x4096_0_1 : S1x4096.BroadcastsInDim S8192x4096 (![0, 1] : Fin 2 → Fin S8192x4096.rank)
  slices_S8192x4100_S8192x4096_0_1 : S8192x4100.Slices ![0, 1] S8192x4096
  slices_S4096x5_S4096x1_0_1 : S4096x5.Slices ![0, 1] S4096x1
  slices_S8192x4100_S8192x4096_0_2 : S8192x4100.Slices ![0, 2] S8192x4096
  slices_S4096x5_S4096x1_0_2 : S4096x5.Slices ![0, 2] S4096x1
  slices_S8192x4100_S8192x4096_0_3 : S8192x4100.Slices ![0, 3] S8192x4096
  slices_S4096x5_S4096x1_0_3 : S4096x5.Slices ![0, 3] S4096x1
  slices_S8192x4100_S8192x4096_0_4 : S8192x4100.Slices ![0, 4] S8192x4096
  slices_S4096x5_S4096x1_0_4 : S4096x5.Slices ![0, 4] S4096x1

variable [Facts₀]

class Facts : Prop extends Facts₀ where

variable [Facts]
-- ==== Proof.Spec.lean ====
/-
  The function both programs compute. For a matrix `x` of 4096 columns, weights `W` (4096 × 5) and a bias `b` (4096):

      out[r, c] = (((((0 + x[r, c−2]·W[c,0]) + x[r, c−1]·W[c,1]) + x[r, c]·W[c,2]) + x[r, c+1]·W[c,3]) + x[r, c+2]·W[c,4]) + b[c]

  where an entry of `x` whose column falls outside 0 … 4095 counts as 0. The sum is taken in this order, from 0, on the
  extended reals; nothing here needs the entries to be finite, because both programs add the same five products in the
  same order.
-/
import Idealize.ShloMosaic.PureOps.Ideal
import Idealize.ShloMosaic.Lib.ValueIdx

noncomputable section

namespace Cert.Banded

open Idealize.ShloMosaic Idealize.ShloMosaic.ValueIdx

/-- Entry `(r, c − s)` of `x`, and 0 when column `c − s` would lie before the first column. -/
def left {A : Nat} (x : (⟨2, ![A, 4096]⟩ : Shape).Idx → EReal) (s : Nat) (r : Fin A) (c : Fin 4096) : EReal :=
  if _h : s ≤ c.val then x (ix2 r ⟨c.val - s, lt_of_le_of_lt (Nat.sub_le _ _) c.isLt⟩) else 0

/-- Entry `(r, c + s)` of `x`, and 0 when column `c + s` would lie past the last column. -/
def right {A : Nat} (x : (⟨2, ![A, 4096]⟩ : Shape).Idx → EReal) (s : Nat) (r : Fin A) (c : Fin 4096) : EReal :=
  if h : c.val + s < 4096 then x (ix2 r ⟨c.val + s, h⟩) else 0

/-- The five neighbours of entry `(r, c)` along its row, each times its weight, added left to right from 0, plus the bias. -/
def taps {A : Nat} (x : (⟨2, ![A, 4096]⟩ : Shape).Idx → EReal) (r : Fin A) (c : Fin 4096) (w0 w1 w2 w3 w4 b : EReal) : EReal :=
  0 + left x 2 r c * w0 + left x 1 r c * w1 + x (ix2 r c) * w2 + right x 1 r c * w3 + right x 2 r c * w4 + b

/-- The whole result: entry `(r, c)` takes column `c`'s five weights `W[c, ·]` and bias `b[c]`. -/
def banded {A : Nat} (x : (⟨2, ![A, 4096]⟩ : Shape).Idx → EReal) (W : (⟨2, ![4096, 5]⟩ : Shape).Idx → EReal)
    (b : (⟨1, ![4096]⟩ : Shape).Idx → EReal) : (⟨2, ![A, 4096]⟩ : Shape).Idx → EReal :=
  fun i => taps x (i 0) (i 1) (W (ix2 (i 1) 0)) (W (ix2 (i 1) 1)) (W (ix2 (i 1) 2)) (W (ix2 (i 1) 3)) (W (ix2 (i 1) 4)) (b (ix1 (i 1)))

theorem banded_ix2 {A : Nat} (x : (⟨2, ![A, 4096]⟩ : Shape).Idx → EReal) (W : (⟨2, ![4096, 5]⟩ : Shape).Idx → EReal)
    (b : (⟨1, ![4096]⟩ : Shape).Idx → EReal) (r : Fin A) (c : Fin 4096) :
    banded x W b (ix2 r c) = taps x r c (W (ix2 c 0)) (W (ix2 c 1)) (W (ix2 c 2)) (W (ix2 c 3)) (W (ix2 c 4)) (b (ix1 c)) := rfl

/-- Shifting by nothing reads the entry itself. -/
theorem left_zero {A : Nat} (x : (⟨2, ![A, 4096]⟩ : Shape).Idx → EReal) (r : Fin A) (c : Fin 4096) : left x 0 r c = x (ix2 r c) := by
  unfold left; rw [dif_pos (Nat.zero_le _)]; rfl

/-- The result at `(r, c)` depends on `x` through row `r` only: two matrices that agree along a row of each give the same value there. -/
theorem taps_congr {A A' : Nat} (x : (⟨2, ![A, 4096]⟩ : Shape).Idx → EReal) (x' : (⟨2, ![A', 4096]⟩ : Shape).Idx → EReal)
    (r : Fin A) (r' : Fin A') (c : Fin 4096) (h : ∀ q : Fin 4096, x (ix2 r q) = x' (ix2 r' q)) (w0 w1 w2 w3 w4 b : EReal) :
    taps x r c w0 w1 w2 w3 w4 b = taps x' r' c w0 w1 w2 w3 w4 b := by
  unfold taps left right
  simp only [h]

end Cert.Banded

end
-- ==== Proof.Shifts.lean ====
/-
  Two ways to read a row shifted by `s` columns with zeros coming in at the edge, each shown to be `Cert.Banded.left` /
  `Cert.Banded.right` of the specification.

  The kernel rotates the 4096 lanes of each row and masks the lanes that wrapped around: rotating by `s` puts lane
  `c − s` at lane `c` for `c ≥ s` (a shift to the right, the mask keeps `c ≥ s`), and rotating by `4096 − s` puts lane
  `c + s` at lane `c` for `c + s < 4096` (a shift to the left, the mask keeps `c < 4096 − s`). The lane number the mask
  compares is the lane's own index as a 32-bit word, which is below 2³¹ and so reads signed as itself.

  The reference pads each row with two zeros in front and two behind (4100 columns) and reads column `k + c` of the padded
  row, `k = 0 … 4`: that is column `c + k − 2` of the row itself when this lies in 0 … 4095, and the padding value otherwise.
-/
import proofs.«133791_j83425444758208_2_alg».proof.Proof.Spec
import Idealize.ShloMosaic.Lib.KernelVsHost
import Idealize.ShloMosaic.Lib.Affine
import Idealize.ShloMosaic.Lib.WordArith

noncomputable section

namespace Cert.Banded

open Idealize.ShloMosaic Idealize.ShloMosaic.ValueIdx Idealize.ShloMosaic.WordArith

/-! ## The kernel's masked rotations -/

/-- Rotated by `s` and kept where the lane is at least `s`: the row shifted right by `s`. -/
theorem masked_rotate_right {A : Nat} (s : Nat) (hs : s < 4096) (v : (⟨2, ![A, 4096]⟩ : Shape).Idx → EReal)
    (h : (⟨2, ![A, 4096]⟩ : Shape).Rotates 1 none) (p : Fin A) (q : Fin 4096) :
    Scalar.select (IntOp.cmpi .sge (BitVec.ofNat 32 q.val) (BitVec.ofNat 32 s))
      (dynamicRotate 1 (BitVec.ofNat 32 s) none v h (ix2 p q)) (0 : EReal) = left v s p q := by
  have hq : q.val < 4096 := q.isLt
  unfold left
  by_cases hsq : s ≤ q.val
  · have hc : IntOp.cmpi .sge (BitVec.ofNat 32 q.val) (BitVec.ofNat 32 s) = 1#1 :=
      IntOp.cmpi_sge.mpr (by
        rw [toInt_ofNat_small _ (by omega), toInt_ofNat_small _ (by omega)]; exact_mod_cast hsq)
    rw [hc, select_one, dif_pos hsq]
    refine dynamicRotate_apply 1 _ v h (ix2 p q) _ (fun b => ?_)
    match b with
    | ⟨0, _⟩ => rfl
    | ⟨1, _⟩ =>
      show q.val - s = (q.val + 4096 - (BitVec.ofNat 32 s).toNat % 4096) % 4096
      rw [BitVec.toNat_ofNat]; omega
  · have hc : IntOp.cmpi .sge (BitVec.ofNat 32 q.val) (BitVec.ofNat 32 s) = 0#1 :=
      eq_zero_of_ne_one (fun e => hsq (by
        have := IntOp.cmpi_sge.mp e
        rw [toInt_ofNat_small _ (by omega), toInt_ofNat_small _ (by omega)] at this; exact_mod_cast this))
    rw [hc, select_zero, dif_neg hsq]

/-- Rotated by `4096 − s` and kept where the lane is below `4096 − s`: the row shifted left by `s`. -/
theorem masked_rotate_left {A : Nat} (s : Nat) (hs : s < 4096) (v : (⟨2, ![A, 4096]⟩ : Shape).Idx → EReal)
    (h : (⟨2, ![A, 4096]⟩ : Shape).Rotates 1 none) (p : Fin A) (q : Fin 4096) :
    Scalar.select (IntOp.cmpi .slt (BitVec.ofNat 32 q.val) (BitVec.ofNat 32 (4096 - s)))
      (dynamicRotate 1 (BitVec.ofNat 32 (4096 - s)) none v h (ix2 p q)) (0 : EReal) = right v s p q := by
  have hq : q.val < 4096 := q.isLt
  unfold right
  by_cases hsq : q.val + s < 4096
  · have hc : IntOp.cmpi .slt (BitVec.ofNat 32 q.val) (BitVec.ofNat 32 (4096 - s)) = 1#1 :=
      IntOp.cmpi_slt.mpr (by
        rw [toInt_ofNat_small _ (by omega), toInt_ofNat_small _ (by omega)]; exact_mod_cast (by omega : q.val < 4096 - s))
    rw [hc, select_one, dif_pos hsq]
    refine dynamicRotate_apply 1 _ v h (ix2 p q) _ (fun b => ?_)
    match b with
    | ⟨0, _⟩ => rfl
    | ⟨1, _⟩ =>
      show q.val + s = (q.val + 4096 - (BitVec.ofNat 32 (4096 - s)).toNat % 4096) % 4096
      rw [BitVec.toNat_ofNat]; omega
  · have hc : IntOp.cmpi .slt (BitVec.ofNat 32 q.val) (BitVec.ofNat 32 (4096 - s)) = 0#1 :=
      eq_zero_of_ne_one (fun e => hsq (by
        have := IntOp.cmpi_slt.mp e
        rw [toInt_ofNat_small _ (by omega), toInt_ofNat_small _ (by omega)] at this
        have h' : q.val < 4096 - s := by exact_mod_cast this
        omega))
    rw [hc, select_zero, dif_neg hsq]

/-! ## The reference's padded rows -/

/-- Column `(2 − s) + c` of the row padded by two zeros on each side is the row shifted right by `s`, for `s ≤ 2`. -/
theorem pad_read_left {A : Nat} (x : (⟨2, ![A, 4096]⟩ : Shape).Idx → EReal) {u : Shape} (v : u.Idx → EReal)
    (hp : (⟨2, ![A, 4096]⟩ : Shape).Pads ![0, 2] ![0, 2] ![0, 0] ⟨2, ![A, 4100]⟩) (hu : 0 < u.numel)
    (hv : v (Shape.Idx.first hu) = 0) (s : Nat) (hs : s ≤ 2)
    (j : (⟨2, ![A, 4100]⟩ : Shape).Idx) (r : Fin A) (c : Fin 4096) (h0 : (j 0).val = r.val) (h1 : (j 1).val = (2 - s) + c.val) :
    pad ⟨2, ![A, 4100]⟩ ![0, 2] ![0, 2] ![0, 0] x v hp hu j = left x s r c := by
  have hc : c.val < 4096 := c.isLt
  unfold left
  by_cases hsc : s ≤ c.val
  · rw [dif_pos hsc]
    refine pad_apply_of_inside ![0, 2] ![0, 2] ![0, 0] x v hp hu j _ (fun a => ?_)
    match a with
    | ⟨0, _⟩ => show (j 0).val = 0 + r.val * (0 + 1); omega
    | ⟨1, _⟩ => show (j 1).val = 2 + (c.val - s) * (0 + 1); omega
  · rw [dif_neg hsc, ← hv]
    refine pad_apply_of_not_inside ![0, 2] ![0, 2] ![0, 0] x v hp hu j (1 : Fin 2) ?_
    show ¬(2 ≤ (j 1).val ∧ ((j 1).val - 2) % (0 + 1) = 0 ∧ ((j 1).val - 2) / (0 + 1) < 4096)
    omega

/-- Column `(2 + s) + c` of the padded row is the row shifted left by `s`, for `s ≤ 2`. -/
theorem pad_read_right {A : Nat} (x : (⟨2, ![A, 4096]⟩ : Shape).Idx → EReal) {u : Shape} (v : u.Idx → EReal)
    (hp : (⟨2, ![A, 4096]⟩ : Shape).Pads ![0, 2] ![0, 2] ![0, 0] ⟨2, ![A, 4100]⟩) (hu : 0 < u.numel)
    (hv : v (Shape.Idx.first hu) = 0) (s : Nat) (hs : s ≤ 2)
    (j : (⟨2, ![A, 4100]⟩ : Shape).Idx) (r : Fin A) (c : Fin 4096) (h0 : (j 0).val = r.val) (h1 : (j 1).val = (2 + s) + c.val) :
    pad ⟨2, ![A, 4100]⟩ ![0, 2] ![0, 2] ![0, 0] x v hp hu j = right x s r c := by
  have hc : c.val < 4096 := c.isLt
  unfold right
  by_cases hsc : c.val + s < 4096
  · rw [dif_pos hsc]
    refine pad_apply_of_inside ![0, 2] ![0, 2] ![0, 0] x v hp hu j _ (fun a => ?_)
    match a with
    | ⟨0, _⟩ => show (j 0).val = 0 + r.val * (0 + 1); omega
    | ⟨1, _⟩ => show (j 1).val = 2 + (c.val + s) * (0 + 1); omega
  · rw [dif_neg hsc, ← hv]
    refine pad_apply_of_not_inside ![0, 2] ![0, 2] ![0, 0] x v hp hu j (1 : Fin 2) ?_
    show ¬(2 ≤ (j 1).val ∧ ((j 1).val - 2) % (0 + 1) = 0 ∧ ((j 1).val - 2) / (0 + 1) < 4096)
    omega

end Cert.Banded

end
-- ==== Proof.RefValue.lean ====
/-
  The reference, read at an index. Its last stage is the sum, in order from 0, of five products and the bias; the
  products' left factors are the slices at columns `k + c`, `k = 0 … 4`, of the rows padded by two zeros on each side —
  the row shifted right by 2, by 1, not at all, left by 1, by 2 — and the right factors are column `k` of the weights,
  read at the entry's own column. So the reference computes `Cert.Banded.banded` of its three arguments.
-/
import proofs.«133791_j83425444758208_2_alg».proof.Proof.Gen.ReferenceIdeal.Read
import proofs.«133791_j83425444758208_2_alg».proof.Proof.Shifts

noncomputable section

namespace Cert.ReferenceIdeal.RefValue

open Cert.ReferenceIdeal Cert.ReferenceIdeal.Gen Cert.ReferenceIdeal.Read Cert.Banded
open Idealize.ShloMosaic Idealize.ShloMosaic.ValueIdx

/-- The padding value — the integer 0 converted — is the real number 0. -/
theorem pad_value : val_main_call0_v0 (F := Ideal) (Shape.Idx.first Facts₀.h_S_) = 0 := by
  rw [val_main_call0_v0_apply, val_main_c_apply]
  exact sitofp_zero (φ := .f32)

/-- Weight `W[c, 0]`, cut out as a column, flattened, laid as a row and repeated down the rows, read at `(r, c)`. -/
theorem weight0_apply (x1 : (⟨S4096x5, .f32⟩ : BufTy).Contents (Elt Ideal)) (r : Fin 8192) (c : Fin 4096) :
    val_main_v6 (F := Ideal) x1 (ix2 r c) = x1 (ix2 c 0) := by
  rw [val_main_v6_apply, val_main_v5_apply, val_main_v4_apply, val_main_v3_apply]
  refine congrArg x1 (funext fun a => Fin.ext ?_)
  match a with
  | ⟨0, _⟩ => exact Nat.div_one _
  | ⟨1, _⟩ => rfl

/-- Weight `W[c, 1]`, cut out as a column, flattened, laid as a row and repeated down the rows, read at `(r, c)`. -/
theorem weight1_apply (x1 : (⟨S4096x5, .f32⟩ : BufTy).Contents (Elt Ideal)) (r : Fin 8192) (c : Fin 4096) :
    val_main_v13 (F := Ideal) x1 (ix2 r c) = x1 (ix2 c 1) := by
  rw [val_main_v13_apply, val_main_v12_apply, val_main_v11_apply, val_main_v10_apply]
  refine congrArg x1 (funext fun a => Fin.ext ?_)
  match a with
  | ⟨0, _⟩ => exact Nat.div_one _
  | ⟨1, _⟩ => rfl

/-- Weight `W[c, 2]`, cut out as a column, flattened, laid as a row and repeated down the rows, read at `(r, c)`. -/
theorem weight2_apply (x1 : (⟨S4096x5, .f32⟩ : BufTy).Contents (Elt Ideal)) (r : Fin 8192) (c : Fin 4096) :
    val_main_v20 (F := Ideal) x1 (ix2 r c) = x1 (ix2 c 2) := by
  rw [val_main_v20_apply, val_main_v19_apply, val_main_v18_apply, val_main_v17_apply]
  refine congrArg x1 (funext fun a => Fin.ext ?_)
  match a with
  | ⟨0, _⟩ => exact Nat.div_one _
  | ⟨1, _⟩ => rfl

/-- Weight `W[c, 3]`, cut out as a column, flattened, laid as a row and repeated down the rows, read at `(r, c)`. -/
theorem weight3_apply (x1 : (⟨S4096x5, .f32⟩ : BufTy).Contents (Elt Ideal)) (r : Fin 8192) (c : Fin 4096) :
    val_main_v27 (F := Ideal) x1 (ix2 r c) = x1 (ix2 c 3) := by
  rw [val_main_v27_apply, val_main_v26_apply, val_main_v25_apply, val_main_v24_apply]
  refine congrArg x1 (funext fun a => Fin.ext ?_)
  match a with
  | ⟨0, _⟩ => exact Nat.div_one _
  | ⟨1, _⟩ => rfl

/-- Weight `W[c, 4]`, cut out as a column, flattened, laid as a row and repeated down the rows, read at `(r, c)`. -/
theorem weight4_apply (x1 : (⟨S4096x5, .f32⟩ : BufTy).Contents (Elt Ideal)) (r : Fin 8192) (c : Fin 4096) :
    val_main_v34 (F := Ideal) x1 (ix2 r c) = x1 (ix2 c 4) := by
  rw [val_main_v34_apply, val_main_v33_apply, val_main_v32_apply, val_main_v31_apply]
  refine congrArg x1 (funext fun a => Fin.ext ?_)
  match a with
  | ⟨0, _⟩ => exact Nat.div_one _
  | ⟨1, _⟩ => rfl

/-- The bias laid as a row and repeated down the rows, read at `(r, c)`, is `b[c]`. -/
theorem bias_apply (x2 : (⟨S4096, .f32⟩ : BufTy).Contents (Elt Ideal)) (r : Fin 8192) (c : Fin 4096) :
    val_main_v38 (F := Ideal) x2 (ix2 r c) = x2 (ix1 c) := by
  rw [val_main_v38_apply, val_main_v37_apply]
  refine congrArg x2 (funext fun a => Fin.ext ?_)
  match a with
  | ⟨0, _⟩ => rfl

/-- Column `0 + c` of the padded rows: the row shifted right by 2. -/
theorem slice0_apply (x0 : (⟨S8192x4096, .f32⟩ : BufTy).Contents (Elt Ideal)) (r : Fin 8192) (c : Fin 4096) :
    val_main_v2 (F := Ideal) x0 (ix2 r c) = left x0 2 r c := by
  rw [val_main_v2_apply]
  exact pad_read_left x0 _ _ _ pad_value 2 (le_refl _) _ r c rfl (by show c.val = (2 - 2) + c.val; omega)

/-- Column `1 + c` of the padded rows: the row shifted right by 1. -/
theorem slice1_apply (x0 : (⟨S8192x4096, .f32⟩ : BufTy).Contents (Elt Ideal)) (r : Fin 8192) (c : Fin 4096) :
    val_main_v9 (F := Ideal) x0 (ix2 r c) = left x0 1 r c := by
  rw [val_main_v9_apply]
  exact pad_read_left x0 _ _ _ pad_value 1 (by omega) _ r c rfl (by show 1 + c.val = (2 - 1) + c.val; omega)

/-- Column `2 + c` of the padded rows: the row itself. -/
theorem slice2_apply (x0 : (⟨S8192x4096, .f32⟩ : BufTy).Contents (Elt Ideal)) (r : Fin 8192) (c : Fin 4096) :
    val_main_v16 (F := Ideal) x0 (ix2 r c) = x0 (ix2 r c) := by
  rw [val_main_v16_apply, ← left_zero x0 r c]
  exact pad_read_left x0 _ _ _ pad_value 0 (by omega) _ r c rfl (by show 2 + c.val = (2 - 0) + c.val; omega)

/-- Column `3 + c` of the padded rows: the row shifted left by 1. -/
theorem slice3_apply (x0 : (⟨S8192x4096, .f32⟩ : BufTy).Contents (Elt Ideal)) (r : Fin 8192) (c : Fin 4096) :
    val_main_v23 (F := Ideal) x0 (ix2 r c) = right x0 1 r c := by
  rw [val_main_v23_apply]
  exact pad_read_right x0 _ _ _ pad_value 1 (by omega) _ r c rfl (by show 3 + c.val = (2 + 1) + c.val; omega)

/-- Column `4 + c` of the padded rows: the row shifted left by 2. -/
theorem slice4_apply (x0 : (⟨S8192x4096, .f32⟩ : BufTy).Contents (Elt Ideal)) (r : Fin 8192) (c : Fin 4096) :
    val_main_v30 (F := Ideal) x0 (ix2 r c) = right x0 2 r c := by
  rw [val_main_v30_apply]
  exact pad_read_right x0 _ _ _ pad_value 2 (le_refl _) _ r c rfl (by show 4 + c.val = (2 + 2) + c.val; omega)

/-- THE REFERENCE IS THE SPECIFICATION: its last stage is `banded` of the three arguments, index by index. -/
theorem ref_eq (x0 : (⟨S8192x4096, .f32⟩ : BufTy).Contents (Elt Ideal)) (x1 : (⟨S4096x5, .f32⟩ : BufTy).Contents (Elt Ideal))
    (x2 : (⟨S4096, .f32⟩ : BufTy).Contents (Elt Ideal)) :
    val_main_v39 (F := Ideal) x0 x1 x2 = banded x0 x1 x2 := by
  funext i
  obtain ⟨r, c, rfl⟩ : ∃ (r : Fin 8192) (c : Fin 4096), i = ix2 r c := ⟨i 0, i 1, eq_ix2 i⟩
  rw [banded_ix2, val_main_v39_apply, val_main_v36_apply, val_main_v29_apply, val_main_v22_apply, val_main_v15_apply,
    val_main_v8_apply, val_main_v35_apply, val_main_v28_apply, val_main_v21_apply, val_main_v14_apply, val_main_v7_apply,
    val_main_v1_apply, val_main_cst_apply,
    slice0_apply, slice1_apply, slice2_apply, slice3_apply, slice4_apply,
    weight0_apply, weight1_apply, weight2_apply, weight3_apply, weight4_apply, bias_apply]
  simp only [taps, Ideal.addf_def, Ideal.mulf_def, Ideal.ofBits_def, Ideal.ofBits_zero_f32]

end Cert.ReferenceIdeal.RefValue

end
-- ==== Proof.Payload.lean ====
/-
  What one trip of the kernel's loop stores, read at an entry. A trip loads a 128 × 4096 sub-block `v` of the input block,
  the five rows of the transposed weights and the bias row, and stores, at the same rows of the output block,

      ((((0 + R₂(v)·w₀) + R₁(v)·w₁) + v·w₂) + L₁(v)·w₃) + L₂(v)·w₄) + bias

  where each row is repeated down the 128 rows, `R_s` is the lane rotation by `s` masked to the lanes `≥ s` and `L_s` the
  rotation by `4096 − s` masked to the lanes `< 4096 − s`. At entry `(p, q)` this is `Cert.Banded.taps` of `v` with the six
  rows read at lane `q`.
-/
import proofs.«133791_j83425444758208_2_alg».proof.Proof.Gen.KernelIdeal.Skeleton
import proofs.«133791_j83425444758208_2_alg».proof.Proof.Shifts
import Idealize.ShloMosaic.Lib.ValueLayout

noncomputable section

namespace Cert.KernelIdeal.BodyValue

open Cert.KernelIdeal Cert.KernelIdeal.Gen Cert.Banded
open Idealize.ShloMosaic Idealize.ShloMosaic.ValueIdx

/-- A loaded weight row, flattened, laid as a row again and repeated down the 128 rows, read at `(p, q)`, is the row at lane `q`. -/
theorem weight_row (v : Vec Ideal S1x4096 .f32) (p : Fin 128) (q : Fin 4096) :
    broadcastTo S128x4096 (shapeCast S1x4096 (shapeCast S1x4096 (shapeCast S4096 v shapeCasts_S1x4096_S4096)
      shapeCasts_S4096_S1x4096) shapeCasts_S1x4096_S1x4096) broadcasts_S1x4096_S128x4096 (ix2 p q) = v (ix2 (0 : Fin 1) q) := by
  rw [shapeCast_self, shapeCast_shapeCast]
  exact broadcastTo_1b_ab_apply v _ p q

/-- The loaded bias row repeated down the 128 rows, read at `(p, q)`, is the row at lane `q`. -/
theorem bias_row (v : Vec Ideal S1x4096 .f32) (p : Fin 128) (q : Fin 4096) :
    broadcastTo S128x4096 (shapeCast S1x4096 (shapeCast S1x4096 v shapeCasts_S1x4096_S1x4096) shapeCasts_S1x4096_S1x4096)
      broadcasts_S1x4096_S128x4096 (ix2 p q) = v (ix2 (0 : Fin 1) q) := by
  rw [shapeCast_self, shapeCast_self]
  exact broadcastTo_1b_ab_apply v _ p q

/-- The sub-block rotated by `s` lanes, kept where the lane number is at least `s` and zero elsewhere: shifted right by `s`. -/
theorem rotated_right (s : Nat) (hs : s < 4096) (v : Vec Ideal S128x4096 .f32) (p : Fin 128) (q : Fin 4096) :
    select (cmpi .sge (iota .tc S128x4096 32 [1] iota_S128x4096_d1_w32) (broadcast S128x4096 (BitVec.ofNat 32 s)))
      (dynamicRotate 1 (BitVec.ofNat 32 s) none v rotates_S128x4096_d1)
      (broadcast S128x4096 (Scalar.ofBits (F := Ideal) .f32 0x00000000#32)) (ix2 p q) = left v s p q := by
  show Scalar.select (IntOp.cmpi .sge (iota .tc S128x4096 32 [1] iota_S128x4096_d1_w32 (ix2 p q)) (BitVec.ofNat 32 s))
      (dynamicRotate 1 (BitVec.ofNat 32 s) none v rotates_S128x4096_d1 (ix2 p q)) (Ideal.ofBits .f32 0x00000000#32) = _
  rw [Ideal.ofBits_zero_f32, iota_single_apply]
  exact masked_rotate_right s hs v _ p q

/-- The sub-block rotated by `n = 4096 − s` lanes, kept where the lane number is below `n` and zero elsewhere: shifted left by `s`. -/
theorem rotated_left (s n : Nat) (hn : n + s = 4096) (hs : 0 < n) (v : Vec Ideal S128x4096 .f32) (p : Fin 128) (q : Fin 4096) :
    select (cmpi .slt (iota .tc S128x4096 32 [1] iota_S128x4096_d1_w32) (broadcast S128x4096 (BitVec.ofNat 32 n)))
      (dynamicRotate 1 (BitVec.ofNat 32 n) none v rotates_S128x4096_d1)
      (broadcast S128x4096 (Scalar.ofBits (F := Ideal) .f32 0x00000000#32)) (ix2 p q) = right v s p q := by
  obtain rfl : n = 4096 - s := by omega
  show Scalar.select (IntOp.cmpi .slt (iota .tc S128x4096 32 [1] iota_S128x4096_d1_w32 (ix2 p q)) (BitVec.ofNat 32 (4096 - s)))
      (dynamicRotate 1 (BitVec.ofNat 32 (4096 - s)) none v rotates_S128x4096_d1 (ix2 p q)) (Ideal.ofBits .f32 0x00000000#32) = _
  rw [Ideal.ofBits_zero_f32, iota_single_apply]
  exact masked_rotate_left s (by omega) v _ p q

/-- ONE TRIP'S STORED VALUE at entry `(p, q)`: the five taps of the loaded sub-block `v` along row `p` around lane `q`, weighted
    by the five loaded weight rows at lane `q`, summed in order from 0, plus the bias row at lane `q`. -/
theorem payload_apply (b v0 v1 v2 v3 v4 : Vec Ideal S1x4096 .f32) (v : Vec Ideal S128x4096 .f32) (p : Fin 128) (q : Fin 4096) :
    k0_pay1 (F := Ideal) b v (k0_pay2 (iota .tc S128x4096 32 [1] iota_S128x4096_d1_w32) v v0 v1 v2) (k0_pay3 v3) v4 (ix2 p q)
      = taps v p q (v0 (ix2 (0 : Fin 1) q)) (v1 (ix2 (0 : Fin 1) q)) (v2 (ix2 (0 : Fin 1) q)) (v3 (ix2 (0 : Fin 1) q))
          (v4 (ix2 (0 : Fin 1) q)) (b (ix2 (0 : Fin 1) q)) := by
  unfold taps
  rw [show (0 : EReal) = broadcast S128x4096 (Scalar.ofBits (F := Ideal) .f32 0x00000000#32) (ix2 p q) from
      Ideal.ofBits_zero_f32.symm,
    ← rotated_right 2 (by omega) v p q, ← rotated_right 1 (by omega) v p q,
    ← rotated_left 1 4095 rfl (by omega) v p q, ← rotated_left 2 4094 rfl (by omega) v p q,
    ← weight_row v0 p q, ← weight_row v1 p q, ← weight_row v2 p q, ← weight_row v3 p q, ← weight_row v4 p q,
    ← bias_row b p q]
  rfl

end Cert.KernelIdeal.BodyValue

end
-- ==== Proof.BlockValue.lean ====
/-
  What the kernel body leaves in its 512 × 4096 output block, as ONE function of the three input blocks.

  The body runs four trips; trip `k` stores, at rows `128·k … 128·k + 127` of the output block, the value computed from rows
  `128·k … 128·k + 127` of the input block (and the whole weight and bias blocks). Entry `(p, q)` of that store is the five
  taps along row `p` of the loaded rows, which is row `128·k + p` of the input block: every piece the run writes is the
  restriction of one function of the block index (`blockValue`), so the pieces read back together are that function.
-/
import proofs.«133791_j83425444758208_2_alg».proof.Proof.Gen.KernelIdeal.Frame
import proofs.«133791_j83425444758208_2_alg».proof.Proof.Payload

set_option maxRecDepth 16384

noncomputable section

namespace Cert.KernelIdeal.BodyValue

open Cert.KernelIdeal Cert.KernelIdeal.Gen Cert.Banded
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

/-- Entry `(P, q)` of the output block: the five taps along row `P` of the input block `x0`, weighted by rows 0 … 4 of the
    weight block `x1` at lane `q`, plus the bias block's one row at lane `q`. -/
def blockValue (x0 : Vec Ideal S512x4096 .f32) (x1 : Vec Ideal S5x4096 .f32) (b : Vec Ideal S1x4096 .f32) : S512x4096.Idx → EReal :=
  fun j => taps x0 (j 0) (j 1) (x1 (ix2 (0 : Fin 5) (j 1))) (x1 (ix2 (1 : Fin 5) (j 1))) (x1 (ix2 (2 : Fin 5) (j 1)))
    (x1 (ix2 (3 : Fin 5) (j 1))) (x1 (ix2 (4 : Fin 5) (j 1))) (b (ix2 (0 : Fin 1) (j 1)))

/-- `taps` of two matrices that agree along a row, with equal weights and bias. -/
theorem taps_congr_all {A A' : Nat} (x : (⟨2, ![A, 4096]⟩ : Shape).Idx → EReal) (x' : (⟨2, ![A', 4096]⟩ : Shape).Idx → EReal)
    (r : Fin A) (r' : Fin A') (c : Fin 4096) (hx : ∀ q : Fin 4096, x (ix2 r q) = x' (ix2 r' q))
    {w0 w1 w2 w3 w4 b w0' w1' w2' w3' w4' b' : EReal} (h0 : w0 = w0') (h1 : w1 = w1') (h2 : w2 = w2') (h3 : w3 = w3')
    (h4 : w4 = w4') (hb : b = b') : taps x r c w0 w1 w2 w3 w4 b = taps x' r' c w0' w1' w2' w3' w4' b' := by
  subst h0 h1 h2 h3 h4 hb
  exact taps_congr x x' r r' c hx _ _ _ _ _ _

/-- A load through a rectangle of unit strides read at `(p, q)` is the contents at the rectangle's offsets plus `(p, q)`. -/
theorem ld_unit_apply {A B a b : Nat} (X : (⟨2, ![A, B]⟩ : Shape).Idx → Elt Ideal .f32) (off : Fin 2 → Nat)
    (inb : ∀ ax, off ax + (⟨2, ![a, b]⟩ : Shape).size ax ≤ (⟨2, ![A, B]⟩ : Shape).size ax)
    (p : Fin a) (q : Fin b) (P : Fin A) (Q : Fin B) (h0 : P.val = off 0 + p.val) (h1 : Q.val = off 1 + q.val) :
    View.ld X (Rect.unit (s := ⟨2, ![A, B]⟩) off (⟨2, ![a, b]⟩ : Shape).size inb) (ix2 p q) = X (ix2 P Q) := by
  refine congrArg X (funext fun ax => Fin.ext ?_)
  match ax with
  | ⟨0, _⟩ => show off 0 + 1 * p.val = P.val; omega
  | ⟨1, _⟩ => show off 1 + 1 * q.val = Q.val; omega

theorem zero_offsets : (![0, 0] : Fin 2 → Nat) = fun _ => 0 := funext fun a => by fin_cases a <;> rfl

/-- TRIP `k`'S ONE PIECE is the restriction of `blockValue` to rows `128·k … 128·k + 127`. -/
theorem trip_pieces (𝒱 : Variants) (c : Dev nD) (bd : Option 𝒱.V) (i : grid0.Coords) (arg1 : Memref sig .tc .vmem S512x4096 .f32) (harg1 : arg1.IsWhole) (arg2 : Memref sig .tc .vmem S5x4096 .f32) (harg2 : arg2.IsWhole) (arg3 : Memref sig .tc .vmem S1x4096 .f32) (harg3 : arg3.IsWhole) (arg4 : Memref sig .tc .vmem S512x4096 .f32) (harg4 : arg4.IsWhole)
    (b : Vec Ideal S1x4096 .f32) (x0 : Vec Ideal S512x4096 .f32) (x1 : Vec Ideal S5x4096 .f32) (k : Fin k0_t1_loop.trips) :
    ∀ pc ∈ tripL_k0_t1 (F := Ideal) 𝒱 c bd i arg1 harg1 arg2 harg2 arg3 harg3 arg4 harg4 (iota .tc S128x4096 32 [1] iota_S128x4096_d1_w32) b (harg1.unread x0) (harg2.unread x1) k,
      ∀ y : pc.1.shape.Idx, pc.2 y = blockValue x0 x1 b (pc.1.emb y) := by
  have hk : k.val < 4 := Nat.lt_of_lt_of_le k.isLt k0_t1_abs.2.1
  unfold tripL_k0_t1 trip_k0_t1
  dsimp only
  sl_unfold_run_names
  refine List.forall_mem_singleton.mpr ?_
  dsimp only
  intro y
  obtain ⟨p, q, rfl⟩ : ∃ (p : Fin 128) (q : Fin 4096), y = ix2 p q := ⟨y 0, y 1, eq_ix2 y⟩
  simp only [View.readAt_eq_ld, harg1.read_unread, harg2.read_unread]
  refine (payload_apply _ _ _ _ _ _ _ p q).trans ?_
  have he : (Rect.unit (s := S512x4096) (k0_off1 k) S128x4096.size (k0_off1_inb k)).emb (ix2 p q)
      = ix2 (⟨128 * k.val + p.val, by omega⟩ : Fin 512) q := by
    funext ax; apply Fin.ext
    match ax with
    | ⟨0, _⟩ => show k0_off1 k 0 + 1 * p.val = 128 * k.val + p.val; rw [k0_off1_eq]; show 128 * k.val + 1 * p.val = _; omega
    | ⟨1, _⟩ => show k0_off1 k 1 + 1 * q.val = q.val; rw [k0_off1_eq]; show 0 + 1 * q.val = _; omega
  refine Eq.trans ?_ (congrArg (blockValue x0 x1 b) he).symm
  show _ = taps x0 (⟨128 * k.val + p.val, by omega⟩ : Fin 512) q (x1 (ix2 (0 : Fin 5) q)) (x1 (ix2 (1 : Fin 5) q))
    (x1 (ix2 (2 : Fin 5) q)) (x1 (ix2 (3 : Fin 5) q)) (x1 (ix2 (4 : Fin 5) q)) (b (ix2 (0 : Fin 1) q))
  refine taps_congr_all _ _ _ _ _ (fun q' => ld_unit_apply x0 _ _ p q' _ q' ?_ ?_)
    (ld_unit_apply x1 _ _ (0 : Fin 1) q _ q rfl (by show q.val = 0 + q.val; omega))
    (ld_unit_apply x1 _ _ (0 : Fin 1) q _ q rfl (by show q.val = 0 + q.val; omega))
    (ld_unit_apply x1 _ _ (0 : Fin 1) q _ q rfl (by show q.val = 0 + q.val; omega))
    (ld_unit_apply x1 _ _ (0 : Fin 1) q _ q rfl (by show q.val = 0 + q.val; omega))
    (ld_unit_apply x1 _ _ (0 : Fin 1) q _ q rfl (by show q.val = 0 + q.val; omega)) rfl
  · show 128 * k.val + p.val = k0_off1 k 0 + p.val; rw [k0_off1_eq]; rfl
  · show q'.val = k0_off1 k 1 + q'.val; rw [k0_off1_eq]; show q'.val = 0 + q'.val; omega

/-- Every piece written before trip `n` is some trip's. -/
theorem pb_mem (𝒱 : Variants) (c : Dev nD) (bd : Option 𝒱.V) (i : grid0.Coords) (arg1 : Memref sig .tc .vmem S512x4096 .f32) (harg1 : arg1.IsWhole) (arg2 : Memref sig .tc .vmem S5x4096 .f32) (harg2 : arg2.IsWhole) (arg3 : Memref sig .tc .vmem S1x4096 .f32) (harg3 : arg3.IsWhole) (arg4 : Memref sig .tc .vmem S512x4096 .f32) (harg4 : arg4.IsWhole)
    (v0 : IVec S128x4096 32) (v1 : Vec Ideal S1x4096 .f32) (X1 : BufTy.Contents (Elt Ideal) arg1.view.ty) (X2 : BufTy.Contents (Elt Ideal) arg2.view.ty) :
    ∀ (n : ℕ) (pc : View.Piece (Elt Ideal) S512x4096 .f32), pc ∈ pb_k0_t1 (F := Ideal) 𝒱 c bd i arg1 harg1 arg2 harg2 arg3 harg3 arg4 harg4 v0 v1 X1 X2 n →
      ∃ k : Fin k0_t1_loop.trips, pc ∈ tripL_k0_t1 (F := Ideal) 𝒱 c bd i arg1 harg1 arg2 harg2 arg3 harg3 arg4 harg4 v0 v1 X1 X2 k := by
  intro n
  induction n with
  | zero => intro pc h; rw [pb_k0_t1.eq_1] at h; exact absurd h List.not_mem_nil
  | succ n ih =>
    intro pc h
    rw [pb_k0_t1.eq_2] at h
    unfold pb_k0_t1Step at h
    split at h
    · rename_i hn
      rcases List.mem_append.mp h with h | h
      · exact ⟨⟨n, hn⟩, h⟩
      · exact ih pc h
    · exact ih pc h

/-- THE OUTPUT BLOCK after the body: `blockValue` of the three input blocks. -/
theorem out_block (c : Dev nD) (i : grid0.Coords) (arg1 : Memref sig .tc .vmem S512x4096 .f32) (harg1 : arg1.IsWhole) (arg2 : Memref sig .tc .vmem S5x4096 .f32) (harg2 : arg2.IsWhole) (arg3 : Memref sig .tc .vmem S1x4096 .f32) (harg3 : arg3.IsWhole) (arg4 : Memref sig .tc .vmem S512x4096 .f32) (harg4 : arg4.IsWhole)
    (x0 : Vec Ideal S512x4096 .f32) (x1 : Vec Ideal S5x4096 .f32) (x2 : Vec Ideal S1x4096 .f32) :
    out0_A_3 (F := Ideal) c i arg1 harg1 arg2 harg2 arg3 harg3 arg4 harg4 x0 x1 x2 = blockValue x0 x1 x2 := by
  funext y
  unfold out0_A_3
  rw [View.read_writes_eq_canon _ _ _ (cover0_A_3 c i arg1 harg1 arg2 harg2 arg3 harg3 arg4 harg4 x0 x1 x2)]
  refine View.canon_apply_of_pieces (blockValue x0 x1 x2) _ ?_ y (cover0_A_3 c i arg1 harg1 arg2 harg2 arg3 harg3 arg4 harg4 x0 x1 x2 y)
  intro pc hpc
  have hL : (kernelRun0_A (F := Ideal) c i arg1 harg1 arg2 harg2 arg3 harg3 arg4 harg4 x0 x1 x2).1
      = pb_k0_t1 (F := Ideal) Variants.none c none i arg1 harg1 arg2 harg2 arg3 harg3 arg4 harg4 (iota .tc S128x4096 32 [1] iota_S128x4096_d1_w32)
          (View.readAt (Elt Ideal) arg3.view (Rect.unit (s := S1x4096) ![0, 0] S1x4096.size inb_S1x4096_S1x4096_0_0).toLoadRect (harg3.unread x2))
          (harg1.unread x0) (harg2.unread x1) k0_t1_loop.trips := by
    unfold kernelRun0_A; dsimp only; sl_unfold_run_names; rfl
  rw [hL] at hpc
  obtain ⟨k, hk⟩ := pb_mem Variants.none c none i arg1 harg1 arg2 harg2 arg3 harg3 arg4 harg4 _ _ _ _ _ pc hpc
  have hb : View.readAt (Elt Ideal) arg3.view (Rect.unit (s := S1x4096) ![0, 0] S1x4096.size inb_S1x4096_S1x4096_0_0).toLoadRect (harg3.unread x2) = x2 := by
    rw [View.readAt_eq_ld, harg3.read_unread]; exact View.ld_unit_zero zero_offsets _ x2
  rw [hb] at hk
  exact trip_pieces Variants.none c none i arg1 harg1 arg2 harg2 arg3 harg3 arg4 harg4 x2 x0 x1 k pc hk

end Cert.KernelIdeal.BodyValue

end
-- ==== Proof.KernelValue.lean ====
/-
  The kernel's result array, as one function of the three arguments.

  The grid has 16 points; at point `t` the input window holds rows `512·t … 512·t + 511` of `x`, the other two windows hold
  the whole transposed weights (entry `(k, q)` is `W[q, k]`) and the whole bias laid as one row, and what the body leaves in
  the output block — `blockValue` of these three — is written back to rows `512·t … 512·t + 511` of the result. Row
  `512·t + p` of the result therefore holds the five taps along row `512·t + p` of `x`: each write-back is block `t` of
  `Cert.Banded.banded x W b`, the 16 blocks cover the array (row `r` lies in block `r / 512`), so the result is `banded x W b`.
-/
import proofs.«133791_j83425444758208_2_alg».proof.Proof.Gen.KernelIdeal.Value
import proofs.«133791_j83425444758208_2_alg».proof.Proof.BlockValue
import Idealize.ShloMosaic.Lib.StableHlo.Run

set_option maxRecDepth 16384

noncomputable section

namespace Cert.KernelIdeal.RunValue

open Cert.KernelIdeal Cert.KernelIdeal.Gen Cert.KernelIdeal.Value Cert.KernelIdeal.BodyValue Cert.Banded
open Idealize.ShloMosaic Idealize.ShloMosaic.TcCoe Idealize.SL.Sem Idealize.ShloMosaic.ValueIdx Idealize.ShloMosaic.StableHlo
open Idealize.ShloMosaic.Pipeline (Dat)

variable (m : (ℓ : Loc nD τ sig) → Buf (Elt Ideal) ℓ) (ρ : Dev nD → PrngReg)

/-! ## What the region finds in the two arrays the host wrote -/

/-- The weights window's array is the weights transposed. -/
theorem weights_entry (c : Dev nD) : (V m c main_v0 : S5x4096.Idx → EReal)
    = transpose S5x4096 [1, 0] (m ((c : Thread nD τ).loc main_arg1)) transposes_S4096x5_S5x4096_1_0 := by
  dsimp only [Gen.V, Gen.hostOps0]; after_results

/-- The bias window's array is the bias laid as one row. -/
theorem bias_entry (c : Dev nD) : (V m c main_v1 : S1x4096.Idx → EReal)
    = shapeCast S1x4096 (m ((c : Thread nD τ).loc main_arg2)) shapeCasts_S4096_S1x4096 := by
  dsimp only [Gen.V, Gen.hostOps0]; after_results; rfl

/-! ## The windows' blocks at a point -/

/-- The printed index maps over the 16 points: the input and output windows are at block row `t`, the other two at the origin. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

theorem point_lt (t : Fin cfg0.N) : t.val < 16 := lt_of_lt_of_eq t.isLt N_0

/-- Row `p` of the input block at point `t` is row `512·t + p` of `x` as the region finds it. -/
theorem x_block (c : Dev nD) (t : Fin cfg0.N) (p : Fin 512) (q : Fin 4096) (hP : 512 * t.val + p.val < 8192) :
    iblk m c 0 t (ix2 p q) = V m c main_arg0 (ix2 (⟨512 * t.val + p.val, hP⟩ : Fin 8192) q) := by
  obtain ⟨e0, e1, -⟩ := idx_facts t
  show V m c main_arg0 (((cfg0.win 0).blk t).view.emb (ix2 p q)) = V m c main_arg0 _
  refine congrArg (V m c main_arg0) (funext fun a => Fin.ext ?_)
  match a with
  | ⟨0, _⟩ => show win0_0.index t (0 : Fin 2) * 512 + 1 * p.val = 512 * t.val + p.val; omega
  | ⟨1, _⟩ => show win0_0.index t (1 : Fin 2) * 4096 + 1 * q.val = q.val; omega

/-- Entry `(k, q)` of the weights block at any point is `W[q, k]`. -/
theorem w_block (c : Dev nD) (t : Fin cfg0.N) (k : Fin 5) (q : Fin 4096) :
    iblk m c 1 t (ix2 k q) = (m ((c : Thread nD τ).loc main_arg1)) (ix2 q k) := by
  obtain ⟨-, -, e2, e3, -⟩ := idx_facts t
  have he : ((cfg0.win 1).blk t).view.emb (ix2 k q) = ix2 k q := by
    funext a; apply Fin.ext
    match a with
    | ⟨0, _⟩ => show win0_1.index t (0 : Fin 2) * 5 + 1 * k.val = k.val; omega
    | ⟨1, _⟩ => show win0_1.index t (1 : Fin 2) * 4096 + 1 * q.val = q.val; omega
  show V m c main_v0 (((cfg0.win 1).blk t).view.emb (ix2 k q)) = _
  refine (congrArg (V m c main_v0) he).trans ?_
  refine (congrFun (weights_entry m c) (ix2 k q)).trans ?_
  exact transpose_ix2_apply _ _ k q

/-- Entry `(0, q)` of the bias block at any point is `b[q]`. -/
theorem b_block (c : Dev nD) (t : Fin cfg0.N) (q : Fin 4096) :
    iblk m c 2 t (ix2 (0 : Fin 1) q) = (m ((c : Thread nD τ).loc main_arg2)) (ix1 q) := by
  obtain ⟨-, -, -, -, e4, e5, -⟩ := idx_facts t
  have he : ((cfg0.win 2).blk t).view.emb (ix2 (0 : Fin 1) q) = ix2 (0 : Fin 1) q := by
    funext a; apply Fin.ext
    match a with
    | ⟨0, _⟩ => show win0_2.index t (0 : Fin 2) * 1 + 1 * 0 = 0; omega
    | ⟨1, _⟩ => show win0_2.index t (1 : Fin 2) * 4096 + 1 * q.val = q.val; omega
  show V m c main_v1 (((cfg0.win 2).blk t).view.emb (ix2 (0 : Fin 1) q)) = _
  refine (congrArg (V m c main_v1) he).trans ?_
  refine (congrFun (bias_entry m c) (ix2 (0 : Fin 1) q)).trans ?_
  exact shapeCast_a_1a_apply _ _ (0 : Fin 1) q

/-! ## One block of the result -/

/-- If the three blocks are rows `512·T …` of `X`, the transposed `W` and `b` as a row, the block function at `(p, q)` is the
    whole-array function at `(512·T + p, q)`. -/
theorem block_at (X : (⟨2, ![8192, 4096]⟩ : Shape).Idx → EReal) (W : (⟨2, ![4096, 5]⟩ : Shape).Idx → EReal)
    (b : (⟨1, ![4096]⟩ : Shape).Idx → EReal) (x0 : Vec Ideal S512x4096 .f32) (x1 : Vec Ideal S5x4096 .f32)
    (x2 : Vec Ideal S1x4096 .f32) (T : Nat) (p : Fin 512) (q : Fin 4096) (hP : 512 * T + p.val < 8192)
    (h0 : ∀ q' : Fin 4096, x0 (ix2 p q') = X (ix2 (⟨512 * T + p.val, hP⟩ : Fin 8192) q'))
    (h1 : ∀ k : Fin 5, x1 (ix2 k q) = W (ix2 q k)) (h2 : x2 (ix2 (0 : Fin 1) q) = b (ix1 q)) :
    blockValue x0 x1 x2 (ix2 p q) = banded X W b (ix2 (⟨512 * T + p.val, hP⟩ : Fin 8192) q) := by
  rw [banded_ix2]
  show taps x0 p q (x1 (ix2 (0 : Fin 5) q)) (x1 (ix2 (1 : Fin 5) q)) (x1 (ix2 (2 : Fin 5) q)) (x1 (ix2 (3 : Fin 5) q))
    (x1 (ix2 (4 : Fin 5) q)) (x2 (ix2 (0 : Fin 1) q)) = _
  exact taps_congr_all _ _ _ _ _ h0 (h1 0) (h1 1) (h1 2) (h1 3) (h1 4) h2

/-- WHAT POINT `t` WRITES BACK is block `t` of `banded` of the arrays as the region finds them. -/
theorem flushed_eq (c : Dev nD) (t : Fin cfg0.N) :
    (dats m 0 c).flushed 3 t = ((cfg0.win 3).blk t).view.read (Elt Ideal)
      (banded (V m c main_arg0) (m ((c : Thread nD τ).loc main_arg1)) (m ((c : Thread nD τ).loc main_arg2))) := by
  have ht := point_lt t
  rw [flushed3_A,
    out_block c (grid0.coords t) (ms0_0 t) (hs0_0 t) (ms0_1 t) (hs0_1 t) (ms0_2 t) (hs0_2 t) (ms0_3 t) (hs0_3 t)
      (iblk m c 0 t) (iblk m c 1 t) (iblk m c 2 t)]
  funext j
  obtain ⟨p, q, rfl⟩ : ∃ (p : Fin 512) (q : Fin 4096), j = ix2 p q := ⟨j 0, j 1, eq_ix2 j⟩
  have hp := p.isLt
  obtain ⟨-, -, -, -, -, -, e6, e7⟩ := idx_facts t
  have he : ((cfg0.win 3).blk t).view.emb (ix2 p q) = ix2 (⟨512 * t.val + p.val, by omega⟩ : Fin 8192) q := by
    funext a; apply Fin.ext
    match a with
    | ⟨0, _⟩ => show win0_3.index t (0 : Fin 2) * 512 + 1 * p.val = 512 * t.val + p.val; omega
    | ⟨1, _⟩ => show win0_3.index t (1 : Fin 2) * 4096 + 1 * q.val = q.val; omega
  show blockValue (iblk m c 0 t) (iblk m c 1 t) (iblk m c 2 t) (ix2 p q)
    = banded (V m c main_arg0) (m ((c : Thread nD τ).loc main_arg1)) (m ((c : Thread nD τ).loc main_arg2)) (((cfg0.win 3).blk t).view.emb (ix2 p q))
  refine Eq.trans ?_ (congrArg (banded (V m c main_arg0) (m ((c : Thread nD τ).loc main_arg1)) (m ((c : Thread nD τ).loc main_arg2))) he).symm
  exact block_at _ _ _ _ _ _ t.val p q (by omega) (fun q' => x_block m c t p q' (by omega)) (fun k => w_block m c t k q)
    (b_block m c t q)

/-! ## The blocks cover the array -/

/-- An index of the array is in point `t`'s block iff each coordinate is in the block's range on its axis. -/
theorem mem_blk (t : Fin cfg0.N) (i : S8192x4096.Idx) :
    i ∈ ((cfg0.win 3).blk t).view.set ↔ ∀ a : Fin 2, win0_3.index t a * S512x4096.size a ≤ (i a).val
      ∧ (i a).val < win0_3.index t a * S512x4096.size a + S512x4096.size a := by
  show i ∈ ((View.whole main_v2).slice (win0_3.rect t)).set ↔ _
  rw [View.set_slice_whole, Rect.mem_set_unit]
  exact Iff.rfl

/-- Row `r` of the array lies in the block of point `r / 512`, which writes back. -/
theorem cover (i : S8192x4096.Idx) : ∃ t : Fin cfg0.N, (cfg0.win 3).flush t = true ∧ i ∈ ((cfg0.win 3).blk t).view.set := by
  have hi0 : (i 0).val < 8192 := (i 0).isLt
  have hi1 : (i 1).val < 4096 := (i 1).isLt
  have hlt : (i 0).val / 512 < cfg0.N := by rw [show cfg0.N = 16 from N_0]; omega
  refine ⟨⟨(i 0).val / 512, hlt⟩, flush0_3 _, ?_⟩
  rw [mem_blk]
  obtain ⟨-, -, -, -, -, -, e6, e7⟩ := idx_facts ⟨(i 0).val / 512, hlt⟩
  have e6' : win0_3.index ⟨(i 0).val / 512, hlt⟩ (0 : Fin 2) = (i 0).val / 512 := e6
  intro a
  match a with
  | ⟨0, _⟩ =>
    show win0_3.index ⟨(i 0).val / 512, hlt⟩ (0 : Fin 2) * 512 ≤ (i 0).val
      ∧ (i 0).val < win0_3.index ⟨(i 0).val / 512, hlt⟩ (0 : Fin 2) * 512 + 512
    omega
  | ⟨1, _⟩ =>
    show win0_3.index ⟨(i 0).val / 512, hlt⟩ (1 : Fin 2) * 4096 ≤ (i 1).val
      ∧ (i 1).val < win0_3.index ⟨(i 0).val / 512, hlt⟩ (1 : Fin 2) * 4096 + 4096
    omega

/-! ## The array after the run, and the run -/

/-- THE RESULT ARRAY after the run is `banded` of the three arguments. -/
theorem final (c : Dev nD) : (dats m 0 c).arrAt 3 cfg0.N
    = banded (m ((c : Thread nD τ).loc main_arg0)) (m ((c : Thread nD τ).loc main_arg1)) (m ((c : Thread nD τ).loc main_arg2)) :=
  ((dats m 0 c).arrAt_eq_of_cover 3 _ (fun t _ => flushed_eq m c t) cover).trans
    (congrArg (fun X : S8192x4096.Idx → EReal => banded X (m ((c : Thread nD τ).loc main_arg1)) (m ((c : Thread nD τ).loc main_arg2))) (V_main_arg0 m c))

/-- The kernel's run: every weakly fair execution terminates with the result array at `banded` of the arguments, the
    arguments unchanged. -/
theorem run : θ_run defs (onTc (τ := τ) (main (F := Ideal))) ⟨m, fun _ => 0, ρ⟩ fun r => ∀ c : Dev nD,
      r.2.mem ((c : Thread nD τ).loc main_v2) = banded (m ((c : Thread nD τ).loc main_arg0)) (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩) (run_blocks m ρ)

end Cert.KernelIdeal.RunValue

end
-- ==== Proof.lean ====
/-
  A banded (five-tap) linear layer over rows of 4096 channels: for x (8192 × 4096), W (4096 × 5), b (4096),

      out[r, c] = Σ_{k = 0..4} x[r, c + k − 2] · W[c, k] + b[c],   entries of x outside columns 0 … 4095 counting as 0,

  the five products added in the order k = 0, 1, 2, 3, 4 starting from 0, then the bias (`Cert.Banded.banded`, Proof/Spec.lean).

  The reference pads each row with two zeros on each side and multiplies the five slices of the padded rows, at columns
  k + c, by column k of W (Proof/RefValue.lean: a slice of the padded row is the row shifted, Proof/Shifts.lean). The kernel
  walks the rows in 16 blocks of 512, each block in 4 sub-blocks of 128 rows; it realises the shifted row by rotating the 4096
  lanes and zeroing the lanes that wrapped around (Proof/Shifts.lean), against the transposed weights, whose row k at lane c
  is W[c, k] (Proof/Payload.lean: one sub-block's stored value at an entry; Proof/BlockValue.lean: the four stored sub-blocks
  are one function of the three input blocks; Proof/KernelValue.lean: the 16 written-back blocks are `banded x W b`).

  Both sides add the same five products in the same order, so they are equal on the extended reals as they stand: the
  precondition (finite inputs) is not used. The ideal pass rewrote nothing, so `preserves` has nothing to state. The three
  frames are the generated frame certificates of the two kernels and the generated run of the reference.
-/
import proofs.«133791_j83425444758208_2_alg».proof.Defs
import proofs.«133791_j83425444758208_2_alg».proof.Proof.Gen.Kernel
import proofs.«133791_j83425444758208_2_alg».proof.Proof.Gen.Kernel.Skeleton
import proofs.«133791_j83425444758208_2_alg».proof.Proof.Gen.Kernel.Loops
import proofs.«133791_j83425444758208_2_alg».proof.Proof.Gen.Kernel.Launch
import proofs.«133791_j83425444758208_2_alg».proof.Proof.Gen.Kernel.Points
import proofs.«133791_j83425444758208_2_alg».proof.Proof.Gen.Kernel.Frame
import proofs.«133791_j83425444758208_2_alg».proof.Proof.Gen.KernelIdeal
import proofs.«133791_j83425444758208_2_alg».proof.Proof.Gen.KernelIdeal.Skeleton
import proofs.«133791_j83425444758208_2_alg».proof.Proof.Gen.KernelIdeal.Loops
import proofs.«133791_j83425444758208_2_alg».proof.Proof.Gen.KernelIdeal.Launch
import proofs.«133791_j83425444758208_2_alg».proof.Proof.Gen.KernelIdeal.Points
import proofs.«133791_j83425444758208_2_alg».proof.Proof.Gen.KernelIdeal.Frame
import proofs.«133791_j83425444758208_2_alg».proof.Proof.Gen.ReferenceIdeal
import proofs.«133791_j83425444758208_2_alg».proof.Proof.Gen.Pre_finite_inputs
import proofs.«133791_j83425444758208_2_alg».proof.Proof.Gen.KernelIdeal.Value
import proofs.«133791_j83425444758208_2_alg».proof.Proof.Gen.ReferenceIdeal.Run
import proofs.«133791_j83425444758208_2_alg».proof.Proof.Gen.ReferenceIdeal.Read
import proofs.«133791_j83425444758208_2_alg».proof.Proof.RefValue
import proofs.«133791_j83425444758208_2_alg».proof.Proof.KernelValue
import Idealize.ShloMosaic.Adequacy
import Idealize.ShloMosaic.Init

noncomputable section

namespace Cert.Proof

open Idealize.ShloMosaic Idealize.SL.Sem

/-- The word-level kernel runs and leaves its arguments as they were: its generated frame certificate. -/
theorem frame_kernel : Cert.frame_Kernel := fun m ρ _ => Cert.Kernel.Gen.frame m ρ

/-- So does the idealized kernel. -/
theorem frame_kernelIdeal : Cert.frame_KernelIdeal := fun m ρ _ => Cert.KernelIdeal.Gen.frame m ρ

/-- The reference is a straight line of host operations: its generated run, the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealized kernel is the kernel's own text read on the extended reals: no rewrite to account for. -/
theorem preserves : Cert.preserves_Kernel_KernelIdeal := trivial

/-- From memories agreeing on x, W and b, both programs end with the result at `banded x W b`. -/
theorem algebraic : Cert.algebraic_KernelIdeal_ReferenceIdeal := by
  intro m ρ m' ρ' _ hagree
  refine ⟨fun c => Cert.Banded.banded (m ((c.tc : Thread Cert.KernelIdeal.nD Cert.KernelIdeal.τ).loc Cert.KernelIdeal.main_arg0))
      (m ((c.tc : Thread Cert.KernelIdeal.nD Cert.KernelIdeal.τ).loc Cert.KernelIdeal.main_arg1)) (m ((c.tc : Thread Cert.KernelIdeal.nD Cert.KernelIdeal.τ).loc Cert.KernelIdeal.main_arg2)),
    Cert.KernelIdeal.RunValue.run m ρ, ?_⟩
  refine (θ_run Cert.ReferenceIdeal.defs _ _).mono (fun _ h c => ⟨?_, (h c).2⟩) (Cert.ReferenceIdeal.Value.run (F := Ideal) m' ρ')
  rw [(h c).1, Cert.ReferenceIdeal.Read.val_main_v39_eq, Cert.ReferenceIdeal.RefValue.ref_eq, (hagree c).1, (hagree c).2.1, (hagree c).2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
